-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_v48) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S4096x1024 .f32) (main_arg5 : FVec F S4096 .f32) (main_arg6 : FVec F S4096 .f32) (main_arg7 : FVec F S1024 .f32) (main_arg8 : FVec F S1024 .f32) (main_arg9 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S4096 .f32) (main_arg6 : FVec F S4096 .f32) (main_arg7 : FVec F S1024 .f32) (main_arg8 : FVec F S1024 .f32) (main_arg9 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_v13 main_v16
-- ==== Kernel.lean ====
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S1x4096 : Shape := ⟨2, ![1, 4096]⟩
abbrev S1x1024 : Shape := ⟨2, ![1, 1024]⟩
abbrev S256x1024 : Shape := ⟨2, ![256, 1024]⟩
abbrev S256x4096 : Shape := ⟨2, ![256, 4096]⟩

abbrev nBuf : Space → Nat
  | .hbm => 21
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x4096, .f32⟩
  | .hbm, ⟨11, _⟩ => ⟨S1024x4096, .bf16⟩
  | .hbm, ⟨12, _⟩ => ⟨S1024x4096, .f32⟩
  | .hbm, ⟨13, _⟩ => ⟨S1024x4096, .bf16⟩
  | .hbm, ⟨14, _⟩ => ⟨S4096, .f32⟩
  | .hbm, ⟨15, _⟩ => ⟨S1x4096, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S4096x1024, .f32⟩
  | .hbm, ⟨20, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x4096, .bf16⟩
  | .local _ .vmem, ⟨7, _⟩ => ⟨S1024x4096, .bf16⟩
  | .local _ .vmem, ⟨8, _⟩ => ⟨S1x4096, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  transposes_S4096x1024_S1024x4096_1_0 : S4096x1024.Transposes [1, 0] S1024x4096
  bitsLt_bf16_f32 : FTy.bits .bf16 < FTy.bits .f32
  shapeCasts_S4096_S1x4096 : S4096.ShapeCasts S1x4096
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x4096.size a ≤ S1024x4096.size a
  hwx0_4 : ∀ i : grid0.Coords, EltTy.bits .bf16 = 32 ∨ (Rect.block (s := S1024x4096) S1024x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S4096x1024.size a
  hwx0_9 : ∀ i : grid0.Coords, EltTy.bits .f32 = 32 ∨ (Rect.block (s := S4096x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S4096x1024.size a
  hwx0_10 : ∀ i : grid0.Coords, EltTy.bits .f32 = 32 ∨ (Rect.block (s := S4096x1024) S256x1024.size (cc0_transform_10 i) (hinb0_10 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9_1) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096 : Shape := ⟨1, ![4096]⟩
abbrev S1024 : Shape := ⟨1, ![1024]⟩
abbrev S1024x4096 : Shape := ⟨2, ![1024, 4096]⟩
abbrev S4096x4096 : Shape := ⟨2, ![4096, 4096]⟩
abbrev S1x4096 : Shape := ⟨2, ![1, 4096]⟩
abbrev S1x1024 : Shape := ⟨2, ![1, 1024]⟩
abbrev S_ : Shape := ⟨0, ![]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S1024x4096, .f32⟩
  | .hbm, ⟨16, _⟩ => ⟨S4096x4096, .f32⟩
  | .hbm, ⟨17, _⟩ => ⟨S4096x4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_1 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_3 : Ref sig .tc := ⟨.hbm, 56, rfl⟩
abbrev main_v42 : Ref sig .tc := ⟨.hbm, 57, rfl⟩
abbrev main_v43 : Ref sig .tc := ⟨.hbm, 58, rfl⟩
abbrev main_cst_4 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.LibMatmul.lean ====
/-
  A matrix product with one contracted axis, accumulated into zero, read at one entry.

  Over the extended reals the product of an A by K matrix and a K by B matrix at entry (p, q) is the sum over k of
  l (p, k) r (k, q): the accumulator is zero, and the contraction index of a product with one contracted axis is
  that axis' coordinate. The lemma is stated for any dimension record whose operand indices are (row, contraction)
  on the left and (contraction, column) on the right, which the four coordinate hypotheses say.
-/
import Idealize.ShloMosaic.PureOps.Ideal.Laws
import Idealize.ShloMosaic.Lib.ValueIdx

noncomputable section

namespace Cert.LibMatmul

open Idealize.ShloMosaic Idealize.ShloMosaic.ValueIdx

/-- Entry (p, q) of a plain matrix product into the zero accumulator is the sum over the contracted axis. -/
theorem matmul_zero_ix2 {A K B : ℕ} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hl0 : ∀ i q, (d.lhsIdx i q (0 : Fin 2)).val = (i (0 : Fin 2)).val)
    (hl1 : ∀ i q, (d.lhsIdx i q (1 : Fin 2)).val = (q ⟨0, by omega⟩).val)
    (hr0 : ∀ i q, (d.rhsIdx i q (0 : Fin 2)).val = (q ⟨0, by omega⟩).val)
    (hr1 : ∀ i q, (d.rhsIdx i q (1 : Fin 2)).val = (i (1 : Fin 2)).val)
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (hl1 _ _).trans hk)
  have er : d.rhsIdx (ix2 p q) ((contrEquiv1 d K hr hs).symm k) = ix2 k q := funext fun a => Fin.ext (by
    match a with
    | ⟨0, _⟩ => exact (hr0 _ _).trans hk
    | ⟨1, _⟩ => exact hr1 _ _)
  rw [el, er]

end Cert.LibMatmul

end
-- ==== Proof.GateTile.lean ====
/-
  The gate pre-activations of one batch tile, entry by entry.

  At one grid point the body holds a tile of 256 batch rows: the rows of x and of h ([256, 1024]), the two weight
  matrices already transposed to [1024, 4096] (feature, gate column), and the row [1, 4096] of summed biases. The
  value it forms first is the [256, 4096] array
      x_tile · W_ih^T + h_tile · W_hh^T + bias_row        (the bias row repeated on every batch row),
  each product accumulated into zero. Over the extended reals a product into the zero accumulator is the plain sum
  over the contracted axis, a change of float format is the identity, and a shape cast to the same shape is the
  identity, so entry (p, q) of that array is
      Σ_k x(p,k) · W_ih^T(k,q) + Σ_k h(p,k) · W_hh^T(k,q) + bias(0,q).
-/
import proofs.«158332_j12343736008988_2_alg».proof.Proof.Gen.KernelIdeal.Skeleton
import proofs.«158332_j12343736008988_2_alg».proof.Proof.LibMatmul
import Idealize.ShloMosaic.Lib.ValueLayout
import Idealize.ShloMosaic.Lib.Pipeline.Value

noncomputable section

namespace Cert.KernelIdeal.Tile

open Cert.KernelIdeal Cert.KernelIdeal.Gen Idealize.ShloMosaic Idealize.ShloMosaic.ValueIdx

/-! ## The product's operand indices: (row, contraction) on the left, (contraction, column) on the right -/

theorem lhs_row (i : S256x4096.Idx) (q : dot_S256x1024_S1024x4096_S256x4096_1_0_0_1_n_n.contr.Idx) :
    (dot_S256x1024_S1024x4096_S256x4096_1_0_0_1_n_n.lhsIdx i q (0 : Fin 2)).val = (i (0 : Fin 2)).val := by
  unfold DotDims.lhsIdx
  rw [dif_neg (show ¬(0 : Fin S256x1024.rank) ∈ dot_S256x1024_S1024x4096_S256x4096_1_0_0_1_n_n.lhsBatch by decide),
    dif_pos (show (0 : Fin S256x1024.rank) ∈ dot_S256x1024_S1024x4096_S256x4096_1_0_0_1_n_n.lhsNonContracting by decide)]
  rfl

theorem lhs_contr (i : S256x4096.Idx) (q : dot_S256x1024_S1024x4096_S256x4096_1_0_0_1_n_n.contr.Idx) :
    (dot_S256x1024_S1024x4096_S256x4096_1_0_0_1_n_n.lhsIdx i q (1 : Fin 2)).val = (q ⟨0, by decide⟩).val :=
  dot_S256x1024_S1024x4096_S256x4096_1_0_0_1_n_n.lhsIdx_val_of_single rfl i q

theorem rhs_contr (i : S256x4096.Idx) (q : dot_S256x1024_S1024x4096_S256x4096_1_0_0_1_n_n.contr.Idx) :
    (dot_S256x1024_S1024x4096_S256x4096_1_0_0_1_n_n.rhsIdx i q (0 : Fin 2)).val = (q ⟨0, by decide⟩).val :=
  dot_S256x1024_S1024x4096_S256x4096_1_0_0_1_n_n.rhsIdx_val_of_single rfl i q

theorem rhs_col (i : S256x4096.Idx) (q : dot_S256x1024_S1024x4096_S256x4096_1_0_0_1_n_n.contr.Idx) :
    (dot_S256x1024_S1024x4096_S256x4096_1_0_0_1_n_n.rhsIdx i q (1 : Fin 2)).val = (i (1 : Fin 2)).val := by
  unfold DotDims.rhsIdx
  rw [dif_neg (show ¬(1 : Fin S1024x4096.rank) ∈ dot_S256x1024_S1024x4096_S256x4096_1_0_0_1_n_n.rhsBatch by decide),
    dif_pos (show (1 : Fin S1024x4096.rank) ∈ dot_S256x1024_S1024x4096_S256x4096_1_0_0_1_n_n.rhsNonContracting by decide)]
  rfl

/-! ## One product, and the whole gate array, at an entry -/

/-- A tile's product with a [1024, 4096] weight matrix into the zero accumulator, the tile narrowed to the
    matrix's float format first (the identity here), at entry (p, q): the sum over the 1024 features. -/
theorem product_at (X : FVec Ideal S256x1024 .f32) (W : FVec Ideal S1024x4096 .bf16) (p : Fin 256) (q : Fin 4096) :
    FloatOps.matmul dot_S256x1024_S1024x4096_S256x4096_1_0_0_1_n_n none (truncf .bf16 X bitsLt_bf16_f32)
        (shapeCast S1024x4096 W shapeCasts_S1024x4096_S1024x4096) (constant (F := Ideal) S256x4096 .f32 0x00000000#32) (ix2 p q)
      = ∑ k : Fin 1024, X (ix2 p k) * W (ix2 k q) := by
  rw [shapeCast_self]
  exact Cert.LibMatmul.matmul_zero_ix2 dot_S256x1024_S1024x4096_S256x4096_1_0_0_1_n_n rfl rfl lhs_row lhs_contr rhs_contr rhs_col
    none (truncf .bf16 X bitsLt_bf16_f32) W p q

/-- The bias row repeated over the tile's 256 batch rows, at entry (p, q): the row's entry q. -/
theorem bias_at (B : FVec Ideal S1x4096 .f32) (p : Fin 256) (q : Fin 4096) :
    broadcastTo S256x4096 (shapeCast S1x4096 B shapeCasts_S1x4096_S1x4096) broadcasts_S1x4096_S256x4096 (ix2 p q)
      = B (ix2 (0 : Fin 1) q) := by
  rw [shapeCast_self]
  exact broadcastTo_1b_ab_apply B broadcasts_S1x4096_S256x4096 p q

/-- Gate column `q`'s pre-activation for the tile's batch row `p`, from the tile's operands. -/
def tileGate (X H : FVec Ideal S256x1024 .f32) (Wi Wh : FVec Ideal S1024x4096 .bf16) (B : FVec Ideal S1x4096 .f32)
    (p : Fin 256) (q : Fin 4096) : EReal :=
  (∑ k : Fin 1024, X (ix2 p k) * Wi (ix2 k q)) + (∑ k : Fin 1024, H (ix2 p k) * Wh (ix2 k q)) + B (ix2 (0 : Fin 1) q)

/-- THE GATE ARRAY OF A TILE at entry (p, q): both products' sums over the features, plus the bias row's entry q. -/
theorem gates_at (X H : FVec Ideal S256x1024 .f32) (Wi Wh : FVec Ideal S1024x4096 .bf16) (B : FVec Ideal S1x4096 .f32)
    (p : Fin 256) (q : Fin 4096) :
    k0_pay3 (F := Ideal) X H Wi Wh B (ix2 p q) = tileGate X H Wi Wh B p q := by
  unfold k0_pay3 tileGate
  show (FloatOps.matmul dot_S256x1024_S1024x4096_S256x4096_1_0_0_1_n_n none (truncf .bf16 X bitsLt_bf16_f32)
          (shapeCast S1024x4096 Wi shapeCasts_S1024x4096_S1024x4096) (constant (F := Ideal) S256x4096 .f32 0x00000000#32) (ix2 p q)
        + FloatOps.matmul dot_S256x1024_S1024x4096_S256x4096_1_0_0_1_n_n none (truncf .bf16 H bitsLt_bf16_f32)
          (shapeCast S1024x4096 Wh shapeCasts_S1024x4096_S1024x4096) (constant (F := Ideal) S256x4096 .f32 0x00000000#32) (ix2 p q))
      + broadcastTo S256x4096 (shapeCast S1x4096 B shapeCasts_S1x4096_S1x4096) broadcasts_S1x4096_S256x4096 (ix2 p q) = _
  rw [product_at X Wi p q, product_at H Wh p q, bias_at B p q]

end Cert.KernelIdeal.Tile

end
-- ==== Proof.CellSpec.lean ====
/-
  One step of a peephole LSTM cell over the extended reals, entry by entry.

  The arguments: the input x and the previous hidden state h, both [4096, 1024] (batch row, feature); the previous
  cell state c, [4096, 1024] (batch row, cell column); the weight matrices W_ih and W_hh, [4096, 1024] (gate column,
  feature); the two bias vectors, [4096] (gate column); the three peephole vectors w_ic, w_fc, w_oc, [1024] (cell
  column).

  The pre-activation of gate column q for batch row r is
      gate r q = Σ_k x(r,k) · W_ih(q,k) + Σ_k h(r,k) · W_hh(q,k) + (b_ih(q) + b_hh(q)).
  Cell column j owns four gate columns: j (input gate), j + 1024 (forget gate), j + 2048 (candidate), j + 3072
  (output gate). With σ z = 1 / (1 + e^(-z)),
      c'(r,j) = σ(gate r (j+1024) + c(r,j) · w_fc(j)) · c(r,j) + σ(gate r j + c(r,j) · w_ic(j)) · tanh(gate r (j+2048)),
      h'(r,j) = σ(gate r (j+3072) + c(r,j) · w_oc(j)) · tanh(c'(r,j)).

  Everything is stated on scalars first (`gateSum`, `cellVal`, `hiddenVal`), so that a tile of the batch and the
  whole batch are the same formula read at different rows, and then as two whole arrays (`cNew`, `hNew`).

  The float 1.0 enters as its bit pattern `0x3F800000`: both programs carry the same word, so its value is never
  needed. Two laws of the extended reals are recorded: `0 - z = -z` for every z, infinite or not, and the regrouping
  of a four-term sum, which only uses that addition is commutative and associative. Neither needs a finite argument.
-/
import Idealize.ShloMosaic.PureOps.Ideal.Laws
import Idealize.ShloMosaic.Lib.ValueIdx

noncomputable section

namespace Cert.Cell

open Idealize.ShloMosaic Idealize.ShloMosaic.ValueIdx

/-- A [4096, 1024] array of extended reals: batch row by feature or cell column, or gate column by feature. -/
abbrev Mat := (⟨2, ![4096, 1024]⟩ : Shape).Idx → EReal
/-- A [4096] array: one entry per gate column. -/
abbrev GateVec := (⟨1, ![4096]⟩ : Shape).Idx → EReal
/-- A [1024] array: one entry per cell column. -/
abbrev CellVec := (⟨1, ![1024]⟩ : Shape).Idx → EReal

/-- The float 1.0, as the word both programs carry. -/
abbrev one : EReal := Ideal.ofBits .f32 0x3F800000#32

/-- A gate's pre-activation from one row of x, one row of h, the gate column's two weight rows and its two biases. -/
def gateSum (xr hr wi wh : Fin 1024 → EReal) (b1 b2 : EReal) : EReal :=
  (∑ k : Fin 1024, xr k * wi k) + (∑ k : Fin 1024, hr k * wh k) + (b1 + b2)

/-- The logistic function 1 / (1 + e^(-z)), with the extended reals' conventions at the infinities. -/
def sigm (z : EReal) : EReal := Ideal.div one (one + Ideal.exp (-z))

/-- The new cell value from the input, forget and candidate pre-activations, the old cell value and two peepholes. -/
def cellVal (gi gf gg cv wic wfc : EReal) : EReal :=
  sigm (gf + cv * wfc) * cv + sigm (gi + cv * wic) * Ideal.tanh gg

/-- The new hidden value from the output gate's pre-activation, the new and old cell values and the output peephole. -/
def hiddenVal (go cn cv woc : EReal) : EReal := sigm (go + cv * woc) * Ideal.tanh cn

/-- The four gate columns of cell column `j`. -/
def colI (j : Fin 1024) : Fin 4096 := ⟨j.val, by omega⟩
def colF (j : Fin 1024) : Fin 4096 := ⟨j.val + 1024, by omega⟩
def colG (j : Fin 1024) : Fin 4096 := ⟨j.val + 2048, by omega⟩
def colO (j : Fin 1024) : Fin 4096 := ⟨j.val + 3072, by omega⟩

/-- Gate column `q`'s pre-activation for batch row `r`. -/
def gate (x h wih whh : Mat) (bih bhh : GateVec) (r q : Fin 4096) : EReal :=
  gateSum (fun k => x (ix2 r k)) (fun k => h (ix2 r k)) (fun k => wih (ix2 q k)) (fun k => whh (ix2 q k))
    (bih (ix1 q)) (bhh (ix1 q))

/-- The new cell state at batch row `r`, cell column `j`. -/
def cellAt (x h c wih whh : Mat) (bih bhh : GateVec) (wic wfc : CellVec) (r : Fin 4096) (j : Fin 1024) : EReal :=
  cellVal (gate x h wih whh bih bhh r (colI j)) (gate x h wih whh bih bhh r (colF j))
    (gate x h wih whh bih bhh r (colG j)) (c (ix2 r j)) (wic (ix1 j)) (wfc (ix1 j))

/-- The new hidden state at batch row `r`, cell column `j`. -/
def hiddenAt (x h c wih whh : Mat) (bih bhh : GateVec) (wic wfc woc : CellVec) (r : Fin 4096) (j : Fin 1024) : EReal :=
  hiddenVal (gate x h wih whh bih bhh r (colO j)) (cellAt x h c wih whh bih bhh wic wfc r j) (c (ix2 r j)) (woc (ix1 j))

/-- The new cell state, as one array. -/
def cNew (x h c wih whh : Mat) (bih bhh : GateVec) (wic wfc : CellVec) : Mat :=
  fun i => cellAt x h c wih whh bih bhh wic wfc (i 0) (i 1)

/-- The new hidden state, as one array. -/
def hNew (x h c wih whh : Mat) (bih bhh : GateVec) (wic wfc woc : CellVec) : Mat :=
  fun i => hiddenAt x h c wih whh bih bhh wic wfc woc (i 0) (i 1)

/-- Subtracting from the zero word negates, for every extended real: `0 - z` is `0 + (-z)`. -/
theorem zero_word_sub (z : EReal) : Ideal.ofBits .f32 0x00000000#32 - z = -z := by
  rw [Ideal.ofBits_zero_f32, zero_sub]

/-- The logistic function written with `0 - z` in the exponent is the same function. -/
theorem sigm_of_zero_sub (z : EReal) :
    Ideal.div one (one + Ideal.exp (Ideal.ofBits .f32 0x00000000#32 - z)) = sigm z := by
  rw [zero_word_sub]; rfl

/-- Adding the two biases one after the other around the second product, or their sum at the end, is one sum:
    addition on the extended reals is commutative and associative. -/
theorem bias_regroup (a b u v : EReal) : a + u + b + v = a + b + (u + v) := by
  rw [add_right_comm a u b, add_assoc (a + b) u v]

end Cert.Cell

end
-- ==== Proof.TileCell.lean ====
/-
  What one grid point leaves in its two output tiles, entry by entry.

  The body's two stores are pointwise expressions over the tile's gate array (`GateTile.lean`), its tile of the old
  cell state, and the three peephole rows [1, 1024], each repeated on every batch row. The generated value leg has
  already pushed the entry's index through the slices of the gate array (column offsets 0, 1024, 2048, 3072) and
  through the row broadcasts; what is left is to name the index each operand is read at, to read the gate array there
  as two sums and a bias, and to recognise the logistic function, which the body spells 1 / (1 + exp(0 - z)).
  The result: at (p, j) the cell tile holds `cellVal` and the hidden tile `hiddenVal` of the tile's gates at row p and
  columns j, j + 1024, j + 2048, j + 3072, of c(p, j) and of the peephole rows' entries j.
-/
import proofs.«158332_j12343736008988_2_alg».proof.Proof.Gen.KernelIdeal.Value
import proofs.«158332_j12343736008988_2_alg».proof.Proof.GateTile
import proofs.«158332_j12343736008988_2_alg».proof.Proof.CellSpec

noncomputable section

namespace Cert.KernelIdeal.Tile

open Cert.KernelIdeal Cert.KernelIdeal.Gen Idealize.ShloMosaic Idealize.ShloMosaic.ValueIdx Cert.Cell

/-- Every load and store of the body starts at the origin of its buffer. -/
theorem origin : (![0, 0] : Fin 2 → Nat) = fun _ => 0 := funext fun a => by fin_cases a <;> rfl

variable (x0 x1 x2 : Vec Ideal S256x1024 .f32) (x3 x4 : Vec Ideal S1024x4096 .bf16) (x5 : Vec Ideal S1x4096 .f32)
  (x6 x7 x8 : Vec Ideal S1x1024 .f32) (p : Fin 256) (j : Fin 1024)

/-- THE CELL TILE at (p, j): window 6 holds the input peephole row, window 7 the forget peephole row. -/
theorem cell_tile :
    out0_10 (F := Ideal) x0 x1 x2 x3 x4 x5 x6 x7 x8 (ix2 p j)
      = cellVal (tileGate x0 x1 x3 x4 x5 p (colI j)) (tileGate x0 x1 x3 x4 x5 p (colF j)) (tileGate x0 x1 x3 x4 x5 p (colG j))
          (x2 (ix2 p j)) (x6 (ix2 (0 : Fin 1) j)) (x7 (ix2 (0 : Fin 1) j)) := by
  have gF : k0_pay3 (F := Ideal) x0 x1 x3 x4 x5 (Value.ix10_0 (ix2 p j)) = tileGate x0 x1 x3 x4 x5 p (colF j) := by
    rw [show Value.ix10_0 (ix2 p j) = ix2 p (colF j) from funext fun a => Fin.ext (by
      match a with | ⟨0, _⟩ => rfl | ⟨1, _⟩ => rfl)]
    exact gates_at x0 x1 x3 x4 x5 p (colF j)
  have gI : k0_pay3 (F := Ideal) x0 x1 x3 x4 x5 (Value.ix10_4 (ix2 p j)) = tileGate x0 x1 x3 x4 x5 p (colI j) := by
    rw [show Value.ix10_4 (ix2 p j) = ix2 p (colI j) from funext fun a => Fin.ext (by
      match a with | ⟨0, _⟩ => rfl | ⟨1, _⟩ => rfl)]
    exact gates_at x0 x1 x3 x4 x5 p (colI j)
  have gG : k0_pay3 (F := Ideal) x0 x1 x3 x4 x5 (Value.ix10_7 (ix2 p j)) = tileGate x0 x1 x3 x4 x5 p (colG j) := by
    rw [show Value.ix10_7 (ix2 p j) = ix2 p (colG j) from funext fun a => Fin.ext (by
      match a with | ⟨0, _⟩ => rfl | ⟨1, _⟩ => rfl)]
    exact gates_at x0 x1 x3 x4 x5 p (colG j)
  have c1 : x2 (Value.ix10_1 (ix2 p j)) = x2 (ix2 p j) := congrArg x2 (funext fun a => Fin.ext (by
    match a with | ⟨0, _⟩ => rfl | ⟨1, _⟩ => rfl))
  have c3 : x2 (Value.ix10_3 (ix2 p j)) = x2 (ix2 p j) := congrArg x2 (funext fun a => Fin.ext (by
    match a with | ⟨0, _⟩ => rfl | ⟨1, _⟩ => rfl))
  have c5 : x2 (Value.ix10_5 (ix2 p j)) = x2 (ix2 p j) := congrArg x2 (funext fun a => Fin.ext (by
    match a with | ⟨0, _⟩ => rfl | ⟨1, _⟩ => rfl))
  have w2 : x7 (Value.ix10_2 (ix2 p j)) = x7 (ix2 (0 : Fin 1) j) := congrArg x7 (funext fun a => Fin.ext (by
    match a with | ⟨0, _⟩ => rfl | ⟨1, _⟩ => rfl))
  have w6 : x6 (Value.ix10_6 (ix2 p j)) = x6 (ix2 (0 : Fin 1) j) := congrArg x6 (funext fun a => Fin.ext (by
    match a with | ⟨0, _⟩ => rfl | ⟨1, _⟩ => rfl))
  unfold out0_10
  rw [Value.canon10_eq]
  simp only [View.ld_unit_zero (S := S256x1024) origin, View.ld_unit_zero (S := S1024x4096) origin,
    View.ld_unit_zero (S := S1x4096) origin, View.ld_unit_zero (S := S1x1024) origin]
  dsimp only [Value.E10]
  simp only [gF, gI, gG, c1, c3, c5, w2, w6]
  unfold cellVal
  rw [← sigm_of_zero_sub, ← sigm_of_zero_sub]
  rfl

/-- THE HIDDEN TILE at (p, j): window 8 holds the output peephole row; the new cell value enters through tanh. -/
theorem hidden_tile :
    out0_9 (F := Ideal) x0 x1 x2 x3 x4 x5 x6 x7 x8 (ix2 p j)
      = hiddenVal (tileGate x0 x1 x3 x4 x5 p (colO j))
          (cellVal (tileGate x0 x1 x3 x4 x5 p (colI j)) (tileGate x0 x1 x3 x4 x5 p (colF j)) (tileGate x0 x1 x3 x4 x5 p (colG j))
            (x2 (ix2 p j)) (x6 (ix2 (0 : Fin 1) j)) (x7 (ix2 (0 : Fin 1) j)))
          (x2 (ix2 p j)) (x8 (ix2 (0 : Fin 1) j)) := by
  have gO : k0_pay3 (F := Ideal) x0 x1 x3 x4 x5 (Value.ix9_0 (ix2 p j)) = tileGate x0 x1 x3 x4 x5 p (colO j) := by
    rw [show Value.ix9_0 (ix2 p j) = ix2 p (colO j) from funext fun a => Fin.ext (by
      match a with | ⟨0, _⟩ => rfl | ⟨1, _⟩ => rfl)]
    exact gates_at x0 x1 x3 x4 x5 p (colO j)
  have gF : k0_pay3 (F := Ideal) x0 x1 x3 x4 x5 (Value.ix9_3 (ix2 p j)) = tileGate x0 x1 x3 x4 x5 p (colF j) := by
    rw [show Value.ix9_3 (ix2 p j) = ix2 p (colF j) from funext fun a => Fin.ext (by
      match a with | ⟨0, _⟩ => rfl | ⟨1, _⟩ => rfl)]
    exact gates_at x0 x1 x3 x4 x5 p (colF j)
  have gI : k0_pay3 (F := Ideal) x0 x1 x3 x4 x5 (Value.ix9_7 (ix2 p j)) = tileGate x0 x1 x3 x4 x5 p (colI j) := by
    rw [show Value.ix9_7 (ix2 p j) = ix2 p (colI j) from funext fun a => Fin.ext (by
      match a with | ⟨0, _⟩ => rfl | ⟨1, _⟩ => rfl)]
    exact gates_at x0 x1 x3 x4 x5 p (colI j)
  have gG : k0_pay3 (F := Ideal) x0 x1 x3 x4 x5 (Value.ix9_10 (ix2 p j)) = tileGate x0 x1 x3 x4 x5 p (colG j) := by
    rw [show Value.ix9_10 (ix2 p j) = ix2 p (colG j) from funext fun a => Fin.ext (by
      match a with | ⟨0, _⟩ => rfl | ⟨1, _⟩ => rfl)]
    exact gates_at x0 x1 x3 x4 x5 p (colG j)
  have c1 : x2 (Value.ix9_1 (ix2 p j)) = x2 (ix2 p j) := congrArg x2 (funext fun a => Fin.ext (by
    match a with | ⟨0, _⟩ => rfl | ⟨1, _⟩ => rfl))
  have c4 : x2 (Value.ix9_4 (ix2 p j)) = x2 (ix2 p j) := congrArg x2 (funext fun a => Fin.ext (by
    match a with | ⟨0, _⟩ => rfl | ⟨1, _⟩ => rfl))
  have c6 : x2 (Value.ix9_6 (ix2 p j)) = x2 (ix2 p j) := congrArg x2 (funext fun a => Fin.ext (by
    match a with | ⟨0, _⟩ => rfl | ⟨1, _⟩ => rfl))
  have c8 : x2 (Value.ix9_8 (ix2 p j)) = x2 (ix2 p j) := congrArg x2 (funext fun a => Fin.ext (by
    match a with | ⟨0, _⟩ => rfl | ⟨1, _⟩ => rfl))
  have w2 : x8 (Value.ix9_2 (ix2 p j)) = x8 (ix2 (0 : Fin 1) j) := congrArg x8 (funext fun a => Fin.ext (by
    match a with | ⟨0, _⟩ => rfl | ⟨1, _⟩ => rfl))
  have w5 : x7 (Value.ix9_5 (ix2 p j)) = x7 (ix2 (0 : Fin 1) j) := congrArg x7 (funext fun a => Fin.ext (by
    match a with | ⟨0, _⟩ => rfl | ⟨1, _⟩ => rfl))
  have w9 : x6 (Value.ix9_9 (ix2 p j)) = x6 (ix2 (0 : Fin 1) j) := congrArg x6 (funext fun a => Fin.ext (by
    match a with | ⟨0, _⟩ => rfl | ⟨1, _⟩ => rfl))
  unfold out0_9
  rw [Value.canon9_eq]
  simp only [View.ld_unit_zero (S := S256x1024) origin, View.ld_unit_zero (S := S1024x4096) origin,
    View.ld_unit_zero (S := S1x4096) origin, View.ld_unit_zero (S := S1x1024) origin]
  dsimp only [Value.E9]
  simp only [gO, gF, gI, gG, c1, c4, c6, c8, w2, w5, w9]
  unfold hiddenVal cellVal
  rw [← sigm_of_zero_sub, ← sigm_of_zero_sub, ← sigm_of_zero_sub]
  rfl

end Cert.KernelIdeal.Tile

end
-- ==== Proof.TileReads.lean ====
/-
  The tile a grid point works on, read off the ten argument arrays.

  The grid has 16 points; point t handles batch rows 256 t … 256 t + 255. Three operands move with the point: the
  tiles of x, of h and of c are rows 256 t + p of the argument arrays. The other six are the same whole array at
  every point, and each was written by the host before the region from an argument array:
    * the two weight operands are W_ih and W_hh transposed to [1024, 4096] (feature, gate column) and narrowed to a
      shorter float format, which over the extended reals changes nothing: entry (k, q) is W(q, k);
    * the bias operand is b_ih + b_hh recast from [4096] to [1, 4096]: entry (0, q) is b_ih(q) + b_hh(q);
    * the three peephole operands are w_ic, w_fc, w_oc recast from [1024] to [1, 1024]: entry (0, j) is w(j).
  So the tile's gate pre-activation at (p, q) is the cell's gate pre-activation for batch row 256 t + p.
-/
import proofs.«158332_j12343736008988_2_alg».proof.Proof.Gen.KernelIdeal.Frame
import proofs.«158332_j12343736008988_2_alg».proof.Proof.GateTile
import proofs.«158332_j12343736008988_2_alg».proof.Proof.CellSpec
import Idealize.ShloMosaic.Lib.StableHlo.Run
import Idealize.ShloMosaic.Lib.ValueLayout

noncomputable section

namespace Cert.KernelIdeal.Tile

open Cert.KernelIdeal Cert.KernelIdeal.Gen Idealize.ShloMosaic Idealize.ShloMosaic.TcCoe Idealize.SL.Sem
open Idealize.ShloMosaic.ValueIdx Cert.Cell

variable (m : (ℓ : Loc nD τ sig) → Buf (Elt Ideal) ℓ)

/-! ## The ten argument arrays of one core, as arrays of extended reals -/

abbrev argX (c : Dev nD) : Mat := m ((c : Thread nD τ).loc main_arg0)
abbrev argH (c : Dev nD) : Mat := m ((c : Thread nD τ).loc main_arg1)
abbrev argC (c : Dev nD) : Mat := m ((c : Thread nD τ).loc main_arg2)
abbrev argWih (c : Dev nD) : Mat := m ((c : Thread nD τ).loc main_arg3)
abbrev argWhh (c : Dev nD) : Mat := m ((c : Thread nD τ).loc main_arg4)
abbrev argBih (c : Dev nD) : GateVec := m ((c : Thread nD τ).loc main_arg5)
abbrev argBhh (c : Dev nD) : GateVec := m ((c : Thread nD τ).loc main_arg6)
abbrev argWic (c : Dev nD) : CellVec := m ((c : Thread nD τ).loc main_arg7)
abbrev argWfc (c : Dev nD) : CellVec := m ((c : Thread nD τ).loc main_arg8)
abbrev argWoc (c : Dev nD) : CellVec := m ((c : Thread nD τ).loc main_arg9)

/-! ## The block index of every window at every point, decided over the 16 points -/

/-- The three batch-tiled inputs and the two outputs sit at block (t, 0). -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_10.index t (0 : Fin 2) = t.val ∧ win0_10.index t (1 : Fin 2) = 0 :=
  (by decide +kernel : ∀ t : Fin grid0.N, _)

/-- The six other inputs sit at block (0, 0) at every point: the whole array. -/
theorem idx_whole : ∀ t : Fin cfg0.N,
    win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- The batch row that row `p` of point `t`'s tile is. -/
def tileRow (t : Fin cfg0.N) (p : Fin 256) : Fin 4096 :=
  ⟨t.val * 256 + p.val, by have ht : t.val < 16 := lt_of_lt_of_eq t.isLt N_0; omega⟩

/-! ## What the host wrote before the region -/

/-- The first weight operand at (k, q) is W_ih(q, k). -/
theorem wih_operand (c : Dev nD) (k : Fin 1024) (q : Fin 4096) :
    (V m c main_v1 : S1024x4096.Idx → EReal) (ix2 k q) = argWih m c (ix2 q k) := by
  have e : (V m c main_v1 : S1024x4096.Idx → EReal)
      = truncf (F := Ideal) .bf16 (transpose S1024x4096 [1, 0] (argWih m c) transposes_S4096x1024_S1024x4096_1_0) bitsLt_bf16_f32 := by
    dsimp only [Gen.V, Gen.hostOps0]; after_results <;> rfl
  rw [e]
  exact transpose_ix2_apply (argWih m c) transposes_S4096x1024_S1024x4096_1_0 k q

/-- The second weight operand at (k, q) is W_hh(q, k). -/
theorem whh_operand (c : Dev nD) (k : Fin 1024) (q : Fin 4096) :
    (V m c main_v3 : S1024x4096.Idx → EReal) (ix2 k q) = argWhh m c (ix2 q k) := by
  have e : (V m c main_v3 : S1024x4096.Idx → EReal)
      = truncf (F := Ideal) .bf16 (transpose S1024x4096 [1, 0] (argWhh m c) transposes_S4096x1024_S1024x4096_1_0) bitsLt_bf16_f32 := by
    dsimp only [Gen.V, Gen.hostOps0]; after_results <;> rfl
  rw [e]
  exact transpose_ix2_apply (argWhh m c) transposes_S4096x1024_S1024x4096_1_0 k q

/-- The bias operand at (0, q) is b_ih(q) + b_hh(q). -/
theorem bias_operand (c : Dev nD) (q : Fin 4096) :
    (V m c main_v5 : S1x4096.Idx → EReal) (ix2 (0 : Fin 1) q) = argBih m c (ix1 q) + argBhh m c (ix1 q) := by
  have e : (V m c main_v5 : S1x4096.Idx → EReal)
      = shapeCast S1x4096 (addf (F := Ideal) (φ := .f32) (argBih m c) (argBhh m c)) shapeCasts_S4096_S1x4096 := by
    dsimp only [Gen.V, Gen.hostOps0]; after_results <;> rfl
  rw [e]
  exact shapeCast_a_1a_apply (addf (F := Ideal) (φ := .f32) (argBih m c) (argBhh m c)) shapeCasts_S4096_S1x4096 0 q

/-- The three peephole operands at (0, j) are w_ic(j), w_fc(j), w_oc(j). -/
theorem wic_operand (c : Dev nD) (j : Fin 1024) :
    (V m c main_v6 : S1x1024.Idx → EReal) (ix2 (0 : Fin 1) j) = argWic m c (ix1 j) := by
  have e : (V m c main_v6 : S1x1024.Idx → EReal) = shapeCast S1x1024 (argWic m c) shapeCasts_S1024_S1x1024 := by
    dsimp only [Gen.V, Gen.hostOps0]; after_results <;> rfl
  rw [e]
  exact shapeCast_a_1a_apply (argWic m c) shapeCasts_S1024_S1x1024 0 j

theorem wfc_operand (c : Dev nD) (j : Fin 1024) :
    (V m c main_v7 : S1x1024.Idx → EReal) (ix2 (0 : Fin 1) j) = argWfc m c (ix1 j) := by
  have e : (V m c main_v7 : S1x1024.Idx → EReal) = shapeCast S1x1024 (argWfc m c) shapeCasts_S1024_S1x1024 := by
    dsimp only [Gen.V, Gen.hostOps0]; after_results <;> rfl
  rw [e]
  exact shapeCast_a_1a_apply (argWfc m c) shapeCasts_S1024_S1x1024 0 j

theorem woc_operand (c : Dev nD) (j : Fin 1024) :
    (V m c main_v8 : S1x1024.Idx → EReal) (ix2 (0 : Fin 1) j) = argWoc m c (ix1 j) := by
  have e : (V m c main_v8 : S1x1024.Idx → EReal) = shapeCast S1x1024 (argWoc m c) shapeCasts_S1024_S1x1024 := by
    dsimp only [Gen.V, Gen.hostOps0]; after_results <;> rfl
  rw [e]
  exact shapeCast_a_1a_apply (argWoc m c) shapeCasts_S1024_S1x1024 0 j

/-! ## Each window's block at point `t`, read off the arguments -/

/-- undefined -/
theorem read_x (c : Dev nD) (t : Fin cfg0.N) (p : Fin 256) (k : Fin 1024) :
    (iblk m c 0 t : S256x1024.Idx → EReal) (ix2 p k) = argX m c (ix2 (tileRow t p) k) := by
  obtain ⟨e0, e1, -⟩ := idx_rows t
  show V m c main_arg0 (((cfg0.win 0).blk t).view.emb (ix2 p k)) = _
  rw [V_main_arg0]
  refine congrArg (argX m c) (funext fun a => Fin.ext ?_)
  match a with
  | ⟨0, _⟩ => show win0_0.index t (0 : Fin 2) * 256 + 1 * p.val = t.val * 256 + p.val; rw [e0]; omega
  | ⟨1, _⟩ => show win0_0.index t (1 : Fin 2) * 1024 + 1 * k.val = k.val; rw [e1]; omega

/-- undefined -/
theorem read_h (c : Dev nD) (t : Fin cfg0.N) (p : Fin 256) (k : Fin 1024) :
    (iblk m c 1 t : S256x1024.Idx → EReal) (ix2 p k) = argH m c (ix2 (tileRow t p) k) := by
  obtain ⟨-, -, e0, e1, -⟩ := idx_rows t
  show V m c main_arg1 (((cfg0.win 1).blk t).view.emb (ix2 p k)) = _
  rw [V_main_arg1]
  refine congrArg (argH m c) (funext fun a => Fin.ext ?_)
  match a with
  | ⟨0, _⟩ => show win0_1.index t (0 : Fin 2) * 256 + 1 * p.val = t.val * 256 + p.val; rw [e0]; omega
  | ⟨1, _⟩ => show win0_1.index t (1 : Fin 2) * 1024 + 1 * k.val = k.val; rw [e1]; omega

/-- undefined -/
theorem read_c (c : Dev nD) (t : Fin cfg0.N) (p : Fin 256) (k : Fin 1024) :
    (iblk m c 2 t : S256x1024.Idx → EReal) (ix2 p k) = argC m c (ix2 (tileRow t p) k) := by
  obtain ⟨-, -, -, -, e0, e1, -⟩ := idx_rows t
  show V m c main_arg2 (((cfg0.win 2).blk t).view.emb (ix2 p k)) = _
  rw [V_main_arg2]
  refine congrArg (argC m c) (funext fun a => Fin.ext ?_)
  match a with
  | ⟨0, _⟩ => show win0_2.index t (0 : Fin 2) * 256 + 1 * p.val = t.val * 256 + p.val; rw [e0]; omega
  | ⟨1, _⟩ => show win0_2.index t (1 : Fin 2) * 1024 + 1 * k.val = k.val; rw [e1]; omega

/-- The first weight operand's block is the whole operand: at (k, q) it is W_ih(q, k). -/
theorem read_wih (c : Dev nD) (t : Fin cfg0.N) (k : Fin 1024) (q : Fin 4096) :
    (iblk m c 3 t : S1024x4096.Idx → EReal) (ix2 k q) = argWih m c (ix2 q k) := by
  obtain ⟨e0, e1, -⟩ := idx_whole t
  have he : ((cfg0.win 3).blk t).view.emb (ix2 k q) = ix2 k q := funext fun a => Fin.ext (by
    match a with
    | ⟨0, _⟩ => show win0_3.index t (0 : Fin 2) * 1024 + 1 * k.val = k.val; rw [e0]; omega
    | ⟨1, _⟩ => show win0_3.index t (1 : Fin 2) * 4096 + 1 * q.val = q.val; rw [e1]; omega)
  show V m c main_v1 (((cfg0.win 3).blk t).view.emb (ix2 k q)) = _
  rw [he]
  exact wih_operand m c k q

/-- The second weight operand's block at (k, q) is W_hh(q, k). -/
theorem read_whh (c : Dev nD) (t : Fin cfg0.N) (k : Fin 1024) (q : Fin 4096) :
    (iblk m c 4 t : S1024x4096.Idx → EReal) (ix2 k q) = argWhh m c (ix2 q k) := by
  obtain ⟨-, -, e0, e1, -⟩ := idx_whole t
  have he : ((cfg0.win 4).blk t).view.emb (ix2 k q) = ix2 k q := funext fun a => Fin.ext (by
    match a with
    | ⟨0, _⟩ => show win0_4.index t (0 : Fin 2) * 1024 + 1 * k.val = k.val; rw [e0]; omega
    | ⟨1, _⟩ => show win0_4.index t (1 : Fin 2) * 4096 + 1 * q.val = q.val; rw [e1]; omega)
  show V m c main_v3 (((cfg0.win 4).blk t).view.emb (ix2 k q)) = _
  rw [he]
  exact whh_operand m c k q

/-- The bias operand's block at (0, q) is b_ih(q) + b_hh(q). -/
theorem read_bias (c : Dev nD) (t : Fin cfg0.N) (q : Fin 4096) :
    (iblk m c 5 t : S1x4096.Idx → EReal) (ix2 (0 : Fin 1) q) = argBih m c (ix1 q) + argBhh m c (ix1 q) := by
  obtain ⟨-, -, -, -, e0, e1, -⟩ := idx_whole t
  have he : ((cfg0.win 5).blk t).view.emb (ix2 (0 : Fin 1) q) = ix2 (0 : Fin 1) q := funext fun a => Fin.ext (by
    match a with
    | ⟨0, _⟩ => show win0_5.index t (0 : Fin 2) * 1 + 1 * 0 = 0; rw [e0]
    | ⟨1, _⟩ => show win0_5.index t (1 : Fin 2) * 4096 + 1 * q.val = q.val; rw [e1]; omega)
  show V m c main_v5 (((cfg0.win 5).blk t).view.emb (ix2 (0 : Fin 1) q)) = _
  rw [he]
  exact bias_operand m c q

/-- The input peephole operand's block at (0, j) is w_ic(j). -/
theorem read_wic (c : Dev nD) (t : Fin cfg0.N) (j : Fin 1024) :
    (iblk m c 6 t : S1x1024.Idx → EReal) (ix2 (0 : Fin 1) j) = argWic m c (ix1 j) := by
  obtain ⟨-, -, -, -, -, -, e0, e1, -⟩ := idx_whole t
  have he : ((cfg0.win 6).blk t).view.emb (ix2 (0 : Fin 1) j) = ix2 (0 : Fin 1) j := funext fun a => Fin.ext (by
    match a with
    | ⟨0, _⟩ => show win0_6.index t (0 : Fin 2) * 1 + 1 * 0 = 0; rw [e0]
    | ⟨1, _⟩ => show win0_6.index t (1 : Fin 2) * 1024 + 1 * j.val = j.val; rw [e1]; omega)
  show V m c main_v6 (((cfg0.win 6).blk t).view.emb (ix2 (0 : Fin 1) j)) = _
  rw [he]
  exact wic_operand m c j

/-- The forget peephole operand's block at (0, j) is w_fc(j). -/
theorem read_wfc (c : Dev nD) (t : Fin cfg0.N) (j : Fin 1024) :
    (iblk m c 7 t : S1x1024.Idx → EReal) (ix2 (0 : Fin 1) j) = argWfc m c (ix1 j) := by
  obtain ⟨-, -, -, -, -, -, -, -, e0, e1, -⟩ := idx_whole t
  have he : ((cfg0.win 7).blk t).view.emb (ix2 (0 : Fin 1) j) = ix2 (0 : Fin 1) j := funext fun a => Fin.ext (by
    match a with
    | ⟨0, _⟩ => show win0_7.index t (0 : Fin 2) * 1 + 1 * 0 = 0; rw [e0]
    | ⟨1, _⟩ => show win0_7.index t (1 : Fin 2) * 1024 + 1 * j.val = j.val; rw [e1]; omega)
  show V m c main_v7 (((cfg0.win 7).blk t).view.emb (ix2 (0 : Fin 1) j)) = _
  rw [he]
  exact wfc_operand m c j

/-- The output peephole operand's block at (0, j) is w_oc(j). -/
theorem read_woc (c : Dev nD) (t : Fin cfg0.N) (j : Fin 1024) :
    (iblk m c 8 t : S1x1024.Idx → EReal) (ix2 (0 : Fin 1) j) = argWoc m c (ix1 j) := by
  obtain ⟨-, -, -, -, -, -, -, -, -, -, e0, e1⟩ := idx_whole t
  have he : ((cfg0.win 8).blk t).view.emb (ix2 (0 : Fin 1) j) = ix2 (0 : Fin 1) j := funext fun a => Fin.ext (by
    match a with
    | ⟨0, _⟩ => show win0_8.index t (0 : Fin 2) * 1 + 1 * 0 = 0; rw [e0]
    | ⟨1, _⟩ => show win0_8.index t (1 : Fin 2) * 1024 + 1 * j.val = j.val; rw [e1]; omega)
  show V m c main_v8 (((cfg0.win 8).blk t).view.emb (ix2 (0 : Fin 1) j)) = _
  rw [he]
  exact woc_operand m c j

/-! ## The tile's gates are the cell's gates at the tile's batch rows -/

/-- Gate column q's pre-activation at row p of point t's tile is its pre-activation for batch row 256 t + p. -/
theorem tile_gate (c : Dev nD) (t : Fin cfg0.N) (p : Fin 256) (q : Fin 4096) :
    tileGate (iblk m c 0 t) (iblk m c 1 t) (iblk m c 3 t) (iblk m c 4 t) (iblk m c 5 t) p q
      = gate (argX m c) (argH m c) (argWih m c) (argWhh m c) (argBih m c) (argBhh m c) (tileRow t p) q := by
  unfold tileGate gate gateSum
  simp only [read_x m c t, read_h m c t, read_wih m c t, read_whh m c t, read_bias m c t]

end Cert.KernelIdeal.Tile

end
-- ==== Proof.CellArrays.lean ====
/-
  The two output arrays after the kernel's run: the new hidden state and the new cell state, whole.

  Grid point t writes back, to each output array, the tile of batch rows 256 t … 256 t + 255 and all 1024 columns.
  What it writes at (p, j) is the cell formula of the tile's operands (`TileCell.lean`), and the tile's operands are
  the argument arrays' entries for batch row 256 t + p (`TileReads.lean`): so the tile written back is the tile of
  ONE array, `hNew` resp. `cNew` of the ten arguments, the same for every point. The sixteen tiles cover the batch
  axis (row r lies in the tile of point r / 256), so after the run each output array is that array.
-/
import proofs.«158332_j12343736008988_2_alg».proof.Proof.Gen.KernelIdeal.Value
import proofs.«158332_j12343736008988_2_alg».proof.Proof.TileCell
import proofs.«158332_j12343736008988_2_alg».proof.Proof.TileReads

noncomputable section

namespace Cert.KernelIdeal.Arrays

open Cert.KernelIdeal Cert.KernelIdeal.Gen Cert.KernelIdeal.Tile Idealize.ShloMosaic Idealize.ShloMosaic.TcCoe Idealize.SL.Sem
open Idealize.ShloMosaic.ValueIdx Cert.Cell
open Idealize.ShloMosaic.Pipeline (Dat)

variable (m : (ℓ : Loc nD τ sig) → Buf (Elt Ideal) ℓ) (ρ : Dev nD → PrngReg)

/-! ## Where an output tile's entry lies in the array -/

/-- Entry (p, j) of point t's hidden tile is entry (256 t + p, j) of the array. -/
theorem hidden_emb (t : Fin cfg0.N) (p : Fin 256) (j : Fin 1024) :
    ((cfg0.win 9).blk t).view.emb (ix2 p j) = ix2 (tileRow t p) j := by
  obtain ⟨-, -, -, -, -, -, e0, e1, -⟩ := idx_rows t
  funext a; apply Fin.ext
  match a with
  | ⟨0, _⟩ => show win0_9.index t (0 : Fin 2) * 256 + 1 * p.val = t.val * 256 + p.val; rw [e0]; omega
  | ⟨1, _⟩ => show win0_9.index t (1 : Fin 2) * 1024 + 1 * j.val = j.val; rw [e1]; omega

/-- Entry (p, j) of point t's cell tile is entry (256 t + p, j) of the array. -/
theorem cell_emb (t : Fin cfg0.N) (p : Fin 256) (j : Fin 1024) :
    ((cfg0.win 10).blk t).view.emb (ix2 p j) = ix2 (tileRow t p) j := by
  obtain ⟨-, -, -, -, -, -, -, -, e0, e1⟩ := idx_rows t
  funext a; apply Fin.ext
  match a with
  | ⟨0, _⟩ => show win0_10.index t (0 : Fin 2) * 256 + 1 * p.val = t.val * 256 + p.val; rw [e0]; omega
  | ⟨1, _⟩ => show win0_10.index t (1 : Fin 2) * 1024 + 1 * j.val = j.val; rw [e1]; omega

/-! ## What a point writes back is a tile of one array -/

/-- The cell formula of point t's operands at (p, j) is the new cell value at (256 t + p, j). -/
theorem cell_of_tile (c : Dev nD) (t : Fin cfg0.N) (p : Fin 256) (j : Fin 1024) :
    cellVal (tileGate (iblk m c 0 t) (iblk m c 1 t) (iblk m c 3 t) (iblk m c 4 t) (iblk m c 5 t) p (colI j))
        (tileGate (iblk m c 0 t) (iblk m c 1 t) (iblk m c 3 t) (iblk m c 4 t) (iblk m c 5 t) p (colF j))
        (tileGate (iblk m c 0 t) (iblk m c 1 t) (iblk m c 3 t) (iblk m c 4 t) (iblk m c 5 t) p (colG j))
        ((iblk m c 2 t : S256x1024.Idx → EReal) (ix2 p j)) ((iblk m c 6 t : S1x1024.Idx → EReal) (ix2 (0 : Fin 1) j))
        ((iblk m c 7 t : S1x1024.Idx → EReal) (ix2 (0 : Fin 1) j))
      = cellAt (argX m c) (argH m c) (argC m c) (argWih m c) (argWhh m c) (argBih m c) (argBhh m c) (argWic m c) (argWfc m c) (tileRow t p) j := by
  rw [tile_gate m c t p (colI j), tile_gate m c t p (colF j), tile_gate m c t p (colG j), read_c m c t p j,
    read_wic m c t j, read_wfc m c t j]
  rfl

/-- WHAT POINT t WRITES BACK to the cell-state array is its tile of `cNew` of the arguments. -/
theorem flushed_cell (c : Dev nD) (t : Fin cfg0.N) :
    (dats m 0 c).flushed 10 t = ((cfg0.win 10).blk t).view.read (Elt Ideal) (cNew (argX m c) (argH m c) (argC m c) (argWih m c) (argWhh m c) (argBih m c) (argBhh m c) (argWic m c) (argWfc m c)) := by
  rw [Value.flushed10]
  funext y
  obtain ⟨p, j, rfl⟩ : ∃ (p : Fin 256) (j : Fin 1024), y = ix2 p j := ⟨y 0, y 1, eq_ix2 y⟩
  show out0_10 (iblk m c 0 t) (iblk m c 1 t) (iblk m c 2 t) (iblk m c 3 t) (iblk m c 4 t) (iblk m c 5 t) (iblk m c 6 t) (iblk m c 7 t) (iblk m c 8 t) (ix2 p j)
    = cNew (argX m c) (argH m c) (argC m c) (argWih m c) (argWhh m c) (argBih m c) (argBhh m c) (argWic m c) (argWfc m c) (((cfg0.win 10).blk t).view.emb (ix2 p j))
  rw [cell_emb t p j, cell_tile (iblk m c 0 t) (iblk m c 1 t) (iblk m c 2 t) (iblk m c 3 t) (iblk m c 4 t) (iblk m c 5 t) (iblk m c 6 t) (iblk m c 7 t) (iblk m c 8 t) p j]
  exact cell_of_tile m c t p j

/-- WHAT POINT t WRITES BACK to the hidden-state array is its tile of `hNew` of the arguments. -/
theorem flushed_hidden (c : Dev nD) (t : Fin cfg0.N) :
    (dats m 0 c).flushed 9 t = ((cfg0.win 9).blk t).view.read (Elt Ideal) (hNew (argX m c) (argH m c) (argC m c) (argWih m c) (argWhh m c) (argBih m c) (argBhh m c) (argWic m c) (argWfc m c) (argWoc m c)) := by
  rw [Value.flushed9]
  funext y
  obtain ⟨p, j, rfl⟩ : ∃ (p : Fin 256) (j : Fin 1024), y = ix2 p j := ⟨y 0, y 1, eq_ix2 y⟩
  show out0_9 (iblk m c 0 t) (iblk m c 1 t) (iblk m c 2 t) (iblk m c 3 t) (iblk m c 4 t) (iblk m c 5 t) (iblk m c 6 t) (iblk m c 7 t) (iblk m c 8 t) (ix2 p j)
    = hNew (argX m c) (argH m c) (argC m c) (argWih m c) (argWhh m c) (argBih m c) (argBhh m c) (argWic m c) (argWfc m c) (argWoc m c) (((cfg0.win 9).blk t).view.emb (ix2 p j))
  rw [hidden_emb t p j, hidden_tile (iblk m c 0 t) (iblk m c 1 t) (iblk m c 2 t) (iblk m c 3 t) (iblk m c 4 t) (iblk m c 5 t) (iblk m c 6 t) (iblk m c 7 t) (iblk m c 8 t) p j, cell_of_tile m c t p j, tile_gate m c t p (colO j), read_c m c t p j,
    read_woc m c t j]
  rfl

/-! ## The sixteen tiles cover the array -/

/-- An entry of the hidden-state array is in point t's tile iff each coordinate is in the tile's range. -/
theorem mem_hidden_tile (t : Fin cfg0.N) (i : S4096x1024.Idx) :
    i ∈ ((cfg0.win 9).blk t).view.set ↔ ∀ a : Fin 2, win0_9.index t a * S256x1024.size a ≤ (i a).val
      ∧ (i a).val < win0_9.index t a * S256x1024.size a + S256x1024.size a := by
  show i ∈ ((View.whole main_v9_0).slice (win0_9.rect t)).set ↔ _
  rw [View.set_slice_whole, Rect.mem_set_unit]
  exact Iff.rfl

theorem mem_cell_tile (t : Fin cfg0.N) (i : S4096x1024.Idx) :
    i ∈ ((cfg0.win 10).blk t).view.set ↔ ∀ a : Fin 2, win0_10.index t a * S256x1024.size a ≤ (i a).val
      ∧ (i a).val < win0_10.index t a * S256x1024.size a + S256x1024.size a := by
  show i ∈ ((View.whole main_v9_1).slice (win0_10.rect t)).set ↔ _
  rw [View.set_slice_whole, Rect.mem_set_unit]
  exact Iff.rfl

/-- The point whose tile holds batch row r: r / 256. -/
def pointOf (i : S4096x1024.Idx) : Fin cfg0.N :=
  ⟨(i 0).val / 256, by have h : (i 0).val < 4096 := (i 0).isLt; show (i 0).val / 256 < grid0.N; rw [N_0]; omega⟩

theorem hidden_cover (i : S4096x1024.Idx) :
    ∃ t : Fin cfg0.N, (cfg0.win 9).flush t = true ∧ i ∈ ((cfg0.win 9).blk t).view.set := by
  have h0 : (i 0).val < 4096 := (i 0).isLt
  have h1 : (i 1).val < 1024 := (i 1).isLt
  obtain ⟨-, -, -, -, -, -, e0, e1, -⟩ := idx_rows (pointOf i)
  refine ⟨pointOf i, flush0_9 _, ?_⟩
  rw [mem_hidden_tile]
  intro a
  match a with
  | ⟨0, _⟩ =>
    show win0_9.index (pointOf i) (0 : Fin 2) * 256 ≤ (i 0).val ∧ (i 0).val < win0_9.index (pointOf i) (0 : Fin 2) * 256 + 256
    rw [e0]; show (i 0).val / 256 * 256 ≤ (i 0).val ∧ (i 0).val < (i 0).val / 256 * 256 + 256; omega
  | ⟨1, _⟩ =>
    show win0_9.index (pointOf i) (1 : Fin 2) * 1024 ≤ (i 1).val ∧ (i 1).val < win0_9.index (pointOf i) (1 : Fin 2) * 1024 + 1024
    rw [e1]; omega

theorem cell_cover (i : S4096x1024.Idx) :
    ∃ t : Fin cfg0.N, (cfg0.win 10).flush t = true ∧ i ∈ ((cfg0.win 10).blk t).view.set := by
  have h0 : (i 0).val < 4096 := (i 0).isLt
  have h1 : (i 1).val < 1024 := (i 1).isLt
  obtain ⟨-, -, -, -, -, -, -, -, e0, e1⟩ := idx_rows (pointOf i)
  refine ⟨pointOf i, flush0_10 _, ?_⟩
  rw [mem_cell_tile]
  intro a
  match a with
  | ⟨0, _⟩ =>
    show win0_10.index (pointOf i) (0 : Fin 2) * 256 ≤ (i 0).val ∧ (i 0).val < win0_10.index (pointOf i) (0 : Fin 2) * 256 + 256
    rw [e0]; show (i 0).val / 256 * 256 ≤ (i 0).val ∧ (i 0).val < (i 0).val / 256 * 256 + 256; omega
  | ⟨1, _⟩ =>
    show win0_10.index (pointOf i) (1 : Fin 2) * 1024 ≤ (i 1).val ∧ (i 1).val < win0_10.index (pointOf i) (1 : Fin 2) * 1024 + 1024
    rw [e1]; omega

/-! ## The arrays after the run, and the run -/

/-- After the run the hidden-state array is `hNew` of the arguments. -/
theorem final_hidden (c : Dev nD) : (dats m 0 c).arrAt 9 cfg0.N = hNew (argX m c) (argH m c) (argC m c) (argWih m c) (argWhh m c) (argBih m c) (argBhh m c) (argWic m c) (argWfc m c) (argWoc m c) :=
  (dats m 0 c).arrAt_eq_of_cover 9 (hNew (argX m c) (argH m c) (argC m c) (argWih m c) (argWhh m c) (argBih m c) (argBhh m c) (argWic m c) (argWfc m c) (argWoc m c)) (fun t _ => flushed_hidden m c t) hidden_cover

/-- After the run the cell-state array is `cNew` of the arguments. -/
theorem final_cell (c : Dev nD) : (dats m 0 c).arrAt 10 cfg0.N = cNew (argX m c) (argH m c) (argC m c) (argWih m c) (argWhh m c) (argBih m c) (argBhh m c) (argWic m c) (argWfc m c) :=
  (dats m 0 c).arrAt_eq_of_cover 10 (cNew (argX m c) (argH m c) (argC m c) (argWih m c) (argWhh m c) (argBih m c) (argBhh m c) (argWic m c) (argWfc m c)) (fun t _ => flushed_cell m c t) cell_cover

/-- THE KERNEL'S RUN: every weakly fair execution terminates with the two results at `hNew` and `cNew` of the
    arguments, the arguments unchanged. -/
theorem run : θ_run defs (onTc (τ := τ) (main (F := Ideal))) ⟨m, fun _ => 0, ρ⟩ fun r => ∀ c : Dev nD,
      r.2.mem ((c : Thread nD τ).loc main_v9_0) = hNew (argX m c) (argH m c) (argC m c) (argWih m c) (argWhh m c) (argBih m c) (argBhh m c) (argWic m c) (argWfc m c) (argWoc m c)
      ∧ r.2.mem ((c : Thread nD τ).loc main_v9_1) = cNew (argX m c) (argH m c) (argC m c) (argWih m c) (argWhh m c) (argBih m c) (argBhh m c) (argWic m c) (argWfc m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final_hidden m c), (h c).2.1.trans (final_cell m c), (h c).2.2⟩)
    (Value.run_blocks m ρ)

end Cert.KernelIdeal.Arrays

end
-- ==== Proof.RefCell.lean ====
/-
  The reference program computes the cell: its two results, entry by entry, are `Cert.Cell.hNew` and `Cert.Cell.cNew`.

  The reference forms the [4096, 4096] array of gate pre-activations as
      ((x · W_ih^T + b_ih) + h · W_hh^T) + b_hh,
  each bias a [4096] vector repeated on every batch row, slices it into four [4096, 1024] column blocks (offsets 0,
  1024, 2048, 3072), adds the peephole product c · w (the [1024] vector repeated on every batch row), applies the
  logistic function spelt 1 / (1 + exp(-z)) and tanh, and combines. Read at entry (r, j) each layout operation moves
  an index and each pointwise operation acts on the entry, so the result is the scalar formula of `Cert.Cell` at
  (r, j); the one law used is the regrouping of the four-term sum of a gate.
-/
import proofs.«158332_j12343736008988_2_alg».proof.Proof.Gen.ReferenceIdeal.Read
import proofs.«158332_j12343736008988_2_alg».proof.Proof.CellSpec

noncomputable section

namespace Cert.ReferenceIdeal.Cell

open Cert.ReferenceIdeal Cert.ReferenceIdeal.Gen Cert.ReferenceIdeal.Read Idealize.ShloMosaic Idealize.ShloMosaic.ValueIdx Cert.Cell

variable (x0 x1 x2 x3 x4 : (⟨S4096x1024, .f32⟩ : BufTy).Contents (Elt Ideal))
  (x5 x6 : (⟨S4096, .f32⟩ : BufTy).Contents (Elt Ideal)) (x7 x8 x9 : (⟨S1024, .f32⟩ : BufTy).Contents (Elt Ideal))

/-! ## The gate array -/

/-- Entry (r, q) of the reference's gate array is gate column q's pre-activation for batch row r. -/
theorem gates_at (r q : Fin 4096) :
    val_main_v10 (F := Ideal) x0 x1 x3 x4 x5 x6 (ix2 r q) = gate x0 x1 x3 x4 x5 x6 r q := by
  have el1 : ∀ k : Fin 1024, lidx_main_v1 (ix2 r q) k = ix2 r k := fun k => funext fun a => Fin.ext (by
    match a with | ⟨0, _⟩ => rfl | ⟨1, _⟩ => rfl)
  have er1 : ∀ k : Fin 1024, idx_main_v0 (ridx_main_v1 (ix2 r q) k) = ix2 q k := fun k => funext fun a => Fin.ext (by
    match a with | ⟨0, _⟩ => rfl | ⟨1, _⟩ => rfl)
  have el6 : ∀ k : Fin 1024, lidx_main_v6 (ix2 r q) k = ix2 r k := fun k => funext fun a => Fin.ext (by
    match a with | ⟨0, _⟩ => rfl | ⟨1, _⟩ => rfl)
  have er6 : ∀ k : Fin 1024, idx_main_v5 (ridx_main_v6 (ix2 r q) k) = ix2 q k := fun k => funext fun a => Fin.ext (by
    match a with | ⟨0, _⟩ => rfl | ⟨1, _⟩ => rfl)
  have eb5 : idx_main_v2 (idx_main_v3 (ix2 r q)) = ix1 q := funext fun a => Fin.ext (by match a with | ⟨0, _⟩ => rfl)
  have eb6 : idx_main_v8 (idx_main_v9 (ix2 r q)) = ix1 q := funext fun a => Fin.ext (by match a with | ⟨0, _⟩ => rfl)
  rw [val_main_v10_apply, val_main_v7_apply, val_main_v4_apply, val_main_v1_apply, val_main_v6_apply, val_main_v3_apply,
    val_main_v2_apply, val_main_v9_apply, val_main_v8_apply, eb5, eb6]
  simp only [val_main_v0_apply, val_main_v5_apply, el1, er1, el6, er6, Ideal.addf_def]
  unfold gate gateSum
  exact bias_regroup _ _ _ _

/-- The four column blocks of the gate array at (r, j): the four gates of cell column j. -/
theorem input_gate_at (r : Fin 4096) (j : Fin 1024) :
    val_main_v11 (F := Ideal) x0 x1 x3 x4 x5 x6 (ix2 r j) = gate x0 x1 x3 x4 x5 x6 r (colI j) := by
  have e : idx_main_v11 (ix2 r j) = ix2 r (colI j) := funext fun a => Fin.ext (by
    match a with | ⟨0, _⟩ => rfl | ⟨1, _⟩ => rfl)
  rw [val_main_v11_apply, e]; exact gates_at x0 x1 x3 x4 x5 x6 r (colI j)

theorem forget_gate_at (r : Fin 4096) (j : Fin 1024) :
    val_main_v12 (F := Ideal) x0 x1 x3 x4 x5 x6 (ix2 r j) = gate x0 x1 x3 x4 x5 x6 r (colF j) := by
  have e : idx_main_v12 (ix2 r j) = ix2 r (colF j) := funext fun a => Fin.ext (by
    match a with | ⟨0, _⟩ => rfl | ⟨1, _⟩ => show 1024 + j.val = j.val + 1024; omega)
  rw [val_main_v12_apply, e]; exact gates_at x0 x1 x3 x4 x5 x6 r (colF j)

theorem candidate_at (r : Fin 4096) (j : Fin 1024) :
    val_main_v13 (F := Ideal) x0 x1 x3 x4 x5 x6 (ix2 r j) = gate x0 x1 x3 x4 x5 x6 r (colG j) := by
  have e : idx_main_v13 (ix2 r j) = ix2 r (colG j) := funext fun a => Fin.ext (by
    match a with | ⟨0, _⟩ => rfl | ⟨1, _⟩ => show 2048 + j.val = j.val + 2048; omega)
  rw [val_main_v13_apply, e]; exact gates_at x0 x1 x3 x4 x5 x6 r (colG j)

theorem output_gate_at (r : Fin 4096) (j : Fin 1024) :
    val_main_v14 (F := Ideal) x0 x1 x3 x4 x5 x6 (ix2 r j) = gate x0 x1 x3 x4 x5 x6 r (colO j) := by
  have e : idx_main_v14 (ix2 r j) = ix2 r (colO j) := funext fun a => Fin.ext (by
    match a with | ⟨0, _⟩ => rfl | ⟨1, _⟩ => show 3072 + j.val = j.val + 3072; omega)
  rw [val_main_v14_apply, e]; exact gates_at x0 x1 x3 x4 x5 x6 r (colO j)

/-! ## The peephole products and the constant -/

/-- c · w_ic with the vector repeated on every batch row, at (r, j). -/
theorem peep_in_at (r : Fin 4096) (j : Fin 1024) :
    val_main_v17 (F := Ideal) x2 x7 (ix2 r j) = x2 (ix2 r j) * x7 (ix1 j) := by
  have e : idx_main_v15 (idx_main_v16 (ix2 r j)) = ix1 j := funext fun a => Fin.ext (by match a with | ⟨0, _⟩ => rfl)
  rw [val_main_v17_apply, val_main_v16_apply, val_main_v15_apply, e]; rfl

/-- c · w_fc at (r, j). -/
theorem peep_forget_at (r : Fin 4096) (j : Fin 1024) :
    val_main_v27 (F := Ideal) x2 x8 (ix2 r j) = x2 (ix2 r j) * x8 (ix1 j) := by
  have e : idx_main_v25 (idx_main_v26 (ix2 r j)) = ix1 j := funext fun a => Fin.ext (by match a with | ⟨0, _⟩ => rfl)
  rw [val_main_v27_apply, val_main_v26_apply, val_main_v25_apply, e]; rfl

/-- c · w_oc at (r, j). -/
theorem peep_out_at (r : Fin 4096) (j : Fin 1024) :
    val_main_v38 (F := Ideal) x2 x9 (ix2 r j) = x2 (ix2 r j) * x9 (ix1 j) := by
  have e : idx_main_v36 (idx_main_v37 (ix2 r j)) = ix1 j := funext fun a => Fin.ext (by match a with | ⟨0, _⟩ => rfl)
  rw [val_main_v38_apply, val_main_v37_apply, val_main_v36_apply, e]; rfl

/-- The six splats of the float 1.0, at any entry. -/
theorem one_a (i : S4096x1024.Idx) : val_main_v21 (F := Ideal) i = one := by rw [val_main_v21_apply, val_main_cst_apply]; rfl
theorem one_b (i : S4096x1024.Idx) : val_main_v23 (F := Ideal) i = one := by rw [val_main_v23_apply, val_main_cst_0_apply]; rfl
theorem one_c (i : S4096x1024.Idx) : val_main_v31 (F := Ideal) i = one := by rw [val_main_v31_apply, val_main_cst_1_apply]; rfl
theorem one_d (i : S4096x1024.Idx) : val_main_v33 (F := Ideal) i = one := by rw [val_main_v33_apply, val_main_cst_2_apply]; rfl
theorem one_e (i : S4096x1024.Idx) : val_main_v42 (F := Ideal) i = one := by rw [val_main_v42_apply, val_main_cst_3_apply]; rfl
theorem one_f (i : S4096x1024.Idx) : val_main_v44 (F := Ideal) i = one := by rw [val_main_v44_apply, val_main_cst_4_apply]; rfl

/-! ## The three gates' activations, and the two results -/

/-- The input gate's activation at (r, j). -/
theorem in_act_at (r : Fin 4096) (j : Fin 1024) :
    val_main_v24 (F := Ideal) x0 x1 x2 x3 x4 x5 x6 x7 (ix2 r j)
      = sigm (gate x0 x1 x3 x4 x5 x6 r (colI j) + x2 (ix2 r j) * x7 (ix1 j)) := by
  rw [val_main_v24_apply, val_main_v22_apply, val_main_v20_apply, val_main_v19_apply, val_main_v18_apply, one_a, one_b,
    input_gate_at, peep_in_at]
  rfl

/-- The forget gate's activation at (r, j). -/
theorem forget_act_at (r : Fin 4096) (j : Fin 1024) :
    val_main_v34 (F := Ideal) x0 x1 x2 x3 x4 x5 x6 x8 (ix2 r j)
      = sigm (gate x0 x1 x3 x4 x5 x6 r (colF j) + x2 (ix2 r j) * x8 (ix1 j)) := by
  rw [val_main_v34_apply, val_main_v32_apply, val_main_v30_apply, val_main_v29_apply, val_main_v28_apply, one_c, one_d,
    forget_gate_at, peep_forget_at]
  rfl

/-- The output gate's activation at (r, j). -/
theorem out_act_at (r : Fin 4096) (j : Fin 1024) :
    val_main_v45 (F := Ideal) x0 x1 x2 x3 x4 x5 x6 x9 (ix2 r j)
      = sigm (gate x0 x1 x3 x4 x5 x6 r (colO j) + x2 (ix2 r j) * x9 (ix1 j)) := by
  rw [val_main_v45_apply, val_main_v43_apply, val_main_v41_apply, val_main_v40_apply, val_main_v39_apply, one_e, one_f,
    output_gate_at, peep_out_at]
  rfl

/-- The reference's second result at (r, j) is the new cell value. -/
theorem cell_at (r : Fin 4096) (j : Fin 1024) :
    val_main_v48 (F := Ideal) x0 x1 x2 x3 x4 x5 x6 x7 x8 (ix2 r j) = cellAt x0 x1 x2 x3 x4 x5 x6 x7 x8 r j := by
  rw [val_main_v48_apply, val_main_v46_apply, val_main_v47_apply, val_main_v35_apply, forget_act_at, in_act_at, candidate_at]
  rfl

/-- The reference's first result at (r, j) is the new hidden value. -/
theorem hidden_at (r : Fin 4096) (j : Fin 1024) :
    val_main_v50 (F := Ideal) x0 x1 x2 x3 x4 x5 x6 x7 x8 x9 (ix2 r j) = hiddenAt x0 x1 x2 x3 x4 x5 x6 x7 x8 x9 r j := by
  rw [val_main_v50_apply, val_main_v49_apply, out_act_at, cell_at]
  rfl

/-- The reference's second result is the new cell state. -/
theorem cell_eq : val_main_v48 (F := Ideal) x0 x1 x2 x3 x4 x5 x6 x7 x8 = cNew x0 x1 x2 x3 x4 x5 x6 x7 x8 := by
  funext i
  obtain ⟨r, j, rfl⟩ : ∃ (r : Fin 4096) (j : Fin 1024), i = ix2 r j := ⟨i 0, i 1, eq_ix2 i⟩
  exact cell_at x0 x1 x2 x3 x4 x5 x6 x7 x8 r j

/-- The reference's first result is the new hidden state. -/
theorem hidden_eq : val_main_v50 (F := Ideal) x0 x1 x2 x3 x4 x5 x6 x7 x8 x9 = hNew x0 x1 x2 x3 x4 x5 x6 x7 x8 x9 := by
  funext i
  obtain ⟨r, j, rfl⟩ : ∃ (r : Fin 4096) (j : Fin 1024), i = ix2 r j := ⟨i 0, i 1, eq_ix2 i⟩
  exact hidden_at x0 x1 x2 x3 x4 x5 x6 x7 x8 x9 r j

end Cert.ReferenceIdeal.Cell

end
-- ==== Proof.lean ====
/-
  A peephole LSTM cell step computed tile by tile, against the same step written with whole-array operations.

  The kernel's program transposes the two weight matrices, sums the two bias vectors and recasts the bias and the
  three peephole vectors as rows on the host, then runs sixteen grid points; point t forms, for batch rows
  256 t … 256 t + 255, the gate pre-activations x · W_ih^T + h · W_hh^T + (b_ih + b_hh), splits them into the four
  gates, and writes the tiles of the new hidden and cell states. The reference forms the whole [4096, 4096] gate
  array as ((x · W_ih^T + b_ih) + h · W_hh^T) + b_hh and applies the same pointwise steps, with the logistic function
  spelt 1 / (1 + exp(-z)) where the kernel has 1 / (1 + exp(0 - z)).

  Over the extended reals both are the one function of `Proof/CellSpec.lean`: `hNew` and `cNew` of the ten
  arguments. The kernel's side is `Proof/CellArrays.lean` (each point writes a tile of that one array, and the tiles
  cover it), over `Proof/TileCell.lean` (a tile's entries), `Proof/GateTile.lean` (the gate array of a tile) and
  `Proof/TileReads.lean` (a tile's operands are the arguments' entries); the reference's side is
  `Proof/RefCell.lean`. The two laws that join them, 0 - z = -z and the regrouping of a four-term sum, hold for
  every extended real, so the precondition is never opened. The idealized kernel is the kernel's own text read over
  the extended reals: no operation was rewritten, and `preserves` has nothing to state.
-/
import proofs.«158332_j12343736008988_2_alg».proof.Defs
import proofs.«158332_j12343736008988_2_alg».proof.Proof.Gen.Kernel
import proofs.«158332_j12343736008988_2_alg».proof.Proof.Gen.Kernel.Frame
import proofs.«158332_j12343736008988_2_alg».proof.Proof.Gen.KernelIdeal
import proofs.«158332_j12343736008988_2_alg».proof.Proof.Gen.KernelIdeal.Frame
import proofs.«158332_j12343736008988_2_alg».proof.Proof.Gen.KernelIdeal.Value
import proofs.«158332_j12343736008988_2_alg».proof.Proof.Gen.ReferenceIdeal
import proofs.«158332_j12343736008988_2_alg».proof.Proof.Gen.ReferenceIdeal.Run
import proofs.«158332_j12343736008988_2_alg».proof.Proof.Gen.ReferenceIdeal.Read
import proofs.«158332_j12343736008988_2_alg».proof.Proof.Gen.Pre_finite_inputs
import proofs.«158332_j12343736008988_2_alg».proof.Proof.CellArrays
import proofs.«158332_j12343736008988_2_alg».proof.Proof.RefCell
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference's run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the ten arguments both programs end with the new hidden state and the new cell
    state of those arguments: the kernel's run by `Arrays.run`, the reference's run with each result's term read as
    the same function (`RefCell.hidden_eq`, `RefCell.cell_eq`) of arguments that agree. -/
theorem algebraic : Cert.algebraic_KernelIdeal_ReferenceIdeal := by
  intro m ρ m' ρ' _ hagree
  refine ⟨_, _, Cert.KernelIdeal.Arrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v50_eq, Cert.ReferenceIdeal.Cell.hidden_eq, (hagree c).1, (hagree c).2.1,
      (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2.1, (hagree c).2.2.2.2.2.2.2.2.2]
  · rw [Cert.ReferenceIdeal.Read.val_main_v48_eq, Cert.ReferenceIdeal.Cell.cell_eq, (hagree c).1, (hagree c).2.1,
      (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2.1]

theorem claim : Cert.Claim := ⟨Cert.Kernel.Gen.facts, Cert.KernelIdeal.Gen.facts, Cert.ReferenceIdeal.Gen.facts, Cert.Pre_finite_inputs.Gen.facts,
  frame_kernel, frame_kernel_ideal, frame_reference, preserves, algebraic⟩

end Cert.Proof

end
